-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x16384 : Shape := ⟨3, ![16, 128, 16384]⟩
abbrev S16x256 : Shape := ⟨2, ![16, 256]⟩
abbrev S128x128x1 : Shape := ⟨3, ![128, 128, 1]⟩
abbrev S128x256 : Shape := ⟨2, ![128, 256]⟩
abbrev S128 : Shape := ⟨1, ![128]⟩
abbrev S_ : Shape := ⟨0, ![]⟩

class Facts : Prop where
  bcast_S_S16x128x16384 : S_.BroadcastsInDim S16x128x16384 (![] : Fin 0 → Fin S16x128x16384.rank)
  reducesTo_S16x128x16384_S_d0_1_2 : S16x128x16384.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_
  bcast_S_S128x128x1 : S_.BroadcastsInDim S128x128x1 (![] : Fin 0 → Fin S128x128x1.rank)
  reducesTo_S128x128x1_S_d0_1_2 : S128x128x1.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16x128x16384 .f32) (main_arg1 : FVec F S16x256 .f32) (main_arg2 : FVec F S128x128x1 .f32) (main_arg3 : FVec F S128x256 .f32) (main_arg4 : FVec F S128 .f32) : IVec S_ 1 :=
  let main_v0 : FVec F S16x128x16384 .f32 := Host.absf main_arg0
  let main_cst : FVec F S_ .f32 := constant S_ .f32 0x7F800000#32
  let main_v1 : FVec F S16x128x16384 .f32 := broadcastInDim S16x128x16384 ![] bcast_S_S16x128x16384 main_cst
  let main_v2 : IVec S16x128x16384 1 := cmpf .olt main_v0 main_v1
  let main_c : IVec S_ 1 := constantI S_ 1 1#1
  let main_v3 : IVec S_ 1 := (fun x v => Host.reduce IntOp.andi x v reducesTo_S16x128x16384_S_d0_1_2 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S128x128x1 .f32 := Host.absf main_arg2
  let main_cst_2 : FVec F S_ .f32 := constant S_ .f32 0x7F800000#32
  let main_v10 : FVec F S128x128x1 .f32 := broadcastInDim S128x128x1 ![] bcast_S_S128x128x1 main_cst_2
  let main_v11 : IVec S128x128x1 1 := cmpf .olt main_v9 main_v10
  let main_c_3 : IVec S_ 1 := constantI S_ 1 1#1
  let main_v12 : IVec S_ 1 := (fun x v => Host.reduce IntOp.andi x v reducesTo_S128x128x1_S_d0_1_2 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S16x128x16384 : Shape := ⟨3, ![16, 128, 16384]⟩
abbrev S16x256 : Shape := ⟨2, ![16, 256]⟩
abbrev S128x128x1 : Shape := ⟨3, ![128, 128, 1]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S16x1x256 : Shape := ⟨3, ![16, 1, 256]⟩
abbrev S1x1x256 : Shape := ⟨3, ![1, 1, 256]⟩
abbrev S1x128x8192 : Shape := ⟨3, ![1, 128, 8192]⟩
abbrev S1x256 : Shape := ⟨2, ![1, 256]⟩
abbrev S128x1 : Shape := ⟨2, ![128, 1]⟩
abbrev S128x8192 : Shape := ⟨2, ![128, 8192]⟩

abbrev nBuf : Space → Nat
  | .hbm => 9
  | .vmem => 9
  | .smem => 0
  | _ => 0

abbrev bufTy : (tb : Table) → Fin (tcTables nBuf tb) → BufTy
  | .hbm, ⟨0, _⟩ => ⟨S16x128x16384, .f32⟩
  | .hbm, ⟨1, _⟩ => ⟨S16x256, .f32⟩
  | .hbm, ⟨2, _⟩ => ⟨S128x128x1, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S1x128, .f32⟩
  | .hbm, ⟨7, _⟩ => ⟨S16x1x256, .f32⟩
  | .hbm, ⟨8, _⟩ => ⟨S16x128x16384, .f32⟩
  | .local _ .vmem, ⟨0, _⟩ => ⟨S1x1x256, .f32⟩
  | .local _ .vmem, ⟨1, _⟩ => ⟨S1x1x256, .f32⟩
  | .local _ .vmem, ⟨2, _⟩ => ⟨S128x256, .f32⟩
  | .local _ .vmem, ⟨3, _⟩ => ⟨S1x128, .f32⟩
  | .local _ .vmem, ⟨4, _⟩ => ⟨S128x128, .f32⟩
  | .local _ .vmem, ⟨5, _⟩ => ⟨S1x128x8192, .f32⟩
  | .local _ .vmem, ⟨6, _⟩ => ⟨S1x128x8192, .f32⟩
  | .local _ .vmem, ⟨7, _⟩ => ⟨S1x128x8192, .f32⟩
  | .local _ .vmem, ⟨8, _⟩ => ⟨S1x128x8192, .f32⟩
  | _, _ => ⟨S16x128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S128x128x1_S128x128 : S128x128x1.ShapeCasts S128x128
  shapeCasts_S128_S1x128 : S128.ShapeCasts S1x128
  shapeCasts_S16x256_S16x1x256 : S16x256.ShapeCasts S16x1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S128x128 : S1x128.Broadcasts S128x128
  reduces_S128x128_S128 : S128x128.Reduces [1] S128
  shapeCasts_S128_S128x1 : S128.ShapeCasts S128x1
  broadcasts_S128x1_S128x128 : S128x1.Broadcasts S128x128
  bitsLt_bf16_f32 : FTy.bits .bf16 < FTy.bits .f32
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  shapeCasts_S128x8192_S1x128x8192 : S128x8192.ShapeCasts S1x128x8192
  dot_S1x256_S128x256_S1x128_1_1_0_0_n_n_wf : DotDims.WF S1x256 S128x256 S1x128 [1] [1] [0] [0] [] []
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256.size a ≤ S16x1x256.size a
  hwx0_0 : ∀ i : grid0.Coords, EltTy.bits .f32 = 32 ∨ (Rect.block (s := S16x1x256) S1x1x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x8192.size a ≤ S16x128x16384.size a
  hwx0_4 : ∀ i : grid0.Coords, EltTy.bits .f32 = 32 ∨ (Rect.block (s := S16x128x16384) S1x128x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x8192.size a ≤ S16x128x16384.size a
  hwx0_5 : ∀ i : grid0.Coords, EltTy.bits .f32 = 32 ∨ (Rect.block (s := S16x128x16384) S1x128x8192.size (cc0_transform_5 i) (hinb0_5 i)).WholeWords (EltTy.packing .f32)

variable [Facts₀]

def dot_S1x256_S128x256_S1x128_1_1_0_0_n_n : DotDims S1x256 S128x256 S1x128 where
  lhsContracting := [1]
  rhsContracting := [1]
  lhsNonContracting := [0]
  rhsNonContracting := [0]
  lhsBatch := []
  rhsBatch := []
  wf := dot_S1x256_S128x256_S1x128_1_1_0_0_n_n_wf
def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_v2) S1x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1x128x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x128x16384 : Shape := ⟨3, ![16, 128, 16384]⟩
abbrev S16x256 : Shape := ⟨2, ![16, 256]⟩
abbrev S128x128x1 : Shape := ⟨3, ![128, 128, 1]⟩
abbrev S128x256 : Shape := ⟨2, ![128, 256]⟩
abbrev S128 : Shape := ⟨1, ![128]⟩
abbrev S256x128 : Shape := ⟨2, ![256, 128]⟩
abbrev S16x128 : Shape := ⟨2, ![16, 128]⟩
abbrev S1x128 : Shape := ⟨2, ![1, 128]⟩
abbrev S_ : Shape := ⟨0, ![]⟩
abbrev S128x128 : Shape := ⟨2, ![128, 128]⟩
abbrev S1x128x128 : Shape := ⟨3, ![1, 128, 128]⟩
abbrev S16x1x128 : Shape := ⟨3, ![16, 1, 128]⟩
abbrev S16x128x128 : Shape := ⟨3, ![16, 128, 128]⟩
abbrev S16x128x1 : Shape := ⟨3, ![16, 128, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x128x16384, .f32⟩
  | .hbm, ⟨1, _⟩ => ⟨S16x256, .f32⟩
  | .hbm, ⟨2, _⟩ => ⟨S128x128x1, .f32⟩
  | .hbm, ⟨3, _⟩ => ⟨S128x256, .f32⟩
  | .hbm, ⟨4, _⟩ => ⟨S128, .f32⟩
  | .hbm, ⟨5, _⟩ => ⟨S256x128, .f32⟩
  | .hbm, ⟨6, _⟩ => ⟨S16x128, .f32⟩
  | .hbm, ⟨7, _⟩ => ⟨S1x128, .f32⟩
  | .hbm, ⟨8, _⟩ => ⟨S16x128, .f32⟩
  | .hbm, ⟨9, _⟩ => ⟨S16x128, .f32⟩
  | .hbm, ⟨10, _⟩ => ⟨S_, .f32⟩
  | .hbm, ⟨11, _⟩ => ⟨S16x128, .f32⟩
  | .hbm, ⟨12, _⟩ => ⟨S16x128, .f32⟩
  | .hbm, ⟨13, _⟩ => ⟨S128x128, .f32⟩
  | .hbm, ⟨14, _⟩ => ⟨S1x128x128, .f32⟩
  | .hbm, ⟨15, _⟩ => ⟨S16x1x128, .f32⟩
  | .hbm, ⟨16, _⟩ => ⟨S16x128x128, .f32⟩
  | .hbm, ⟨17, _⟩ => ⟨S16x128x128, .f32⟩
  | .hbm, ⟨18, _⟩ => ⟨S16x128x128, .f32⟩
  | .hbm, ⟨19, _⟩ => ⟨S16x128x128, .f32⟩
  | .hbm, ⟨20, _⟩ => ⟨S_, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S16x128x1, .f32⟩
  | .hbm, ⟨27, _⟩ => ⟨S16x128x128, .f32⟩
  | .hbm, ⟨28, _⟩ => ⟨S16x128x128, .f32⟩
  | .hbm, ⟨29, _⟩ => ⟨S16x128x16384, .f32⟩
  | _, _ => ⟨S16x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S_S16x128 : S_.BroadcastsInDim S16x128 (![] : Fin 0 → Fin S16x128.rank)
  shapeCasts_S128x128x1_S128x128 : S128x128x1.ShapeCasts S128x128
  bcast_S128x128_S1x128x128_1_2 : S128x128.BroadcastsInDim S1x128x128 (![1, 2] : Fin 2 → Fin S1x128x128.rank)
  bcast_S16x128_S16x1x128_0_2 : S16x128.BroadcastsInDim S16x1x128 (![0, 2] : Fin 2 → Fin S16x1x128.rank)
  bcast_S1x128x128_S16x128x128_0_1_2 : S1x128x128.BroadcastsInDim S16x128x128 (![0, 1, 2] : Fin 3 → Fin S16x128x128.rank)
  bcast_S16x1x128_S16x128x128_0_1_2 : S16x1x128.BroadcastsInDim S16x128x128 (![0, 1, 2] : Fin 3 → Fin S16x128x128.rank)
  reducesTo_S16x128x128_S16x128_d2 : S16x128x128.ReducesTo [2] S16x128
  h_S_ : 0 < S_.numel
  bcast_S16x128_S16x128x1_0_1 : S16x128.BroadcastsInDim S16x128x1 (![0, 1] : Fin 2 → Fin S16x128x1.rank)
  bcast_S16x128x1_S16x128x128_0_1_2 : S16x128x1.BroadcastsInDim S16x128x128 (![0, 1, 2] : Fin 3 → Fin S16x128x128.rank)
  dot_S16x256_S256x128_S16x128_1_0_0_1_n_n_wf : DotDims.WF S16x256 S256x128 S16x128 [1] [0] [0] [1] [] []
  dot_S16x128x128_S16x128x16384_S16x128x16384_2_1_1_2_0_0_wf : DotDims.WF S16x128x128 S16x128x16384 S16x128x16384 [2] [1] [1] [2] [0] [0]

variable [Facts₀]

def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128x128_S16x128x16384_S16x128x16384_2_1_1_2_0_0 : DotDims S16x128x128 S16x128x16384 S16x128x16384 where
  lhsContracting := [2]
  rhsContracting := [1]
  lhsNonContracting := [1]
  rhsNonContracting := [2]
  lhsBatch := [0]
  rhsBatch := [0]
  wf := dot_S16x128x128_S16x128x16384_S16x128x16384_2_1_1_2_0_0_wf

class Facts : Prop extends Facts₀ where

variable [Facts]
-- ==== Proof.Spec.lean ====
/-
  The function both programs compute, written once over plain coordinates.

  For one sample, with `t` its 256 style values, `mw`, `mb` the modulation weights and bias, `w` the 128 × 128
  convolution weights (kernel size one) and `x` one column of the sample's 128 input channels:

    scale i   = (∑ q, t q · mw i q) + mb i + 1                 the modulation of input channel i
    modw o i  = w o i · scale i                                 the modulated weight
    demod o   = rsqrt ((∑ i, modw o i · modw o i) + ε)          the demodulation of output channel o
    core o    = ∑ i, (modw o i · demod o) · x i                 the 1 × 1 convolution at that column

  over the extended reals, `1` and `ε` the two float literals both programs print (kept as their binary words: the same
  word on both sides is never evaluated).  `G` is `core` read at every index `(b, o, l)` of the result array: sample `b`'s
  row of `t`, and column `l` of sample `b`'s slab of `x`.
-/
import Idealize.ShloMosaic.PureOps.Ideal
import Idealize.ShloMosaic.Lib.ValueIdx

noncomputable section

namespace Cert.ModConv

open Idealize.ShloMosaic Idealize.ShloMosaic.ValueIdx

/-- The literal `1.0`. -/
abbrev one : EReal := Ideal.ofBits .f32 0x3F800000#32
/-- The literal `ε` (the f32 nearest `1e-8`). -/
abbrev eps : EReal := Ideal.ofBits .f32 0x322BCC77#32

/-- The modulation of input channel `i`: the style row against row `i` of the modulation weights, plus the bias, plus one. -/
def scale (t : Fin 256 → EReal) (mw : Fin 128 → Fin 256 → EReal) (mb : Fin 128 → EReal) (i : Fin 128) : EReal :=
  (∑ q : Fin 256, t q * mw i q) + mb i + one

/-- The modulated weight. -/
def modw (w : Fin 128 → Fin 128 → EReal) (s : Fin 128 → EReal) (o i : Fin 128) : EReal := w o i * s i

/-- The demodulation of output channel `o`: the reciprocal root of its row's sum of squares plus `ε`. -/
def demod (bw : Fin 128 → Fin 128 → EReal) (o : Fin 128) : EReal :=
  Ideal.rsqrt ((∑ i : Fin 128, bw o i * bw o i) + eps)

/-- Output channel `o` at one column `x` of the sample's input channels. -/
def core (t : Fin 256 → EReal) (mw : Fin 128 → Fin 256 → EReal) (mb : Fin 128 → EReal) (w : Fin 128 → Fin 128 → EReal)
    (x : Fin 128 → EReal) (o : Fin 128) : EReal :=
  ∑ i : Fin 128, (modw w (scale t mw mb) o i * demod (modw w (scale t mw mb)) o) * x i

/-- The result at coordinates `(b, o, l)`, from the five argument arrays. -/
def Gc (X : (⟨3, ![16, 128, 16384]⟩ : Shape).Idx → EReal) (T : (⟨2, ![16, 256]⟩ : Shape).Idx → EReal)
    (W : (⟨3, ![128, 128, 1]⟩ : Shape).Idx → EReal) (M : (⟨2, ![128, 256]⟩ : Shape).Idx → EReal)
    (Bv : (⟨1, ![128]⟩ : Shape).Idx → EReal) (b : Fin 16) (o : Fin 128) (l : Fin 16384) : EReal :=
  core (fun q => T (ix2 b q)) (fun i q => M (ix2 i q)) (fun i => Bv (ix1 i)) (fun o i => W (ix3 o i (0 : Fin 1)))
    (fun i => X (ix3 b i l)) o

/-- The result array. -/
def G (X : (⟨3, ![16, 128, 16384]⟩ : Shape).Idx → EReal) (T : (⟨2, ![16, 256]⟩ : Shape).Idx → EReal)
    (W : (⟨3, ![128, 128, 1]⟩ : Shape).Idx → EReal) (M : (⟨2, ![128, 256]⟩ : Shape).Idx → EReal)
    (Bv : (⟨1, ![128]⟩ : Shape).Idx → EReal) : (⟨3, ![16, 128, 16384]⟩ : Shape).Idx → EReal :=
  fun j => Gc X T W M Bv (j 0) (j 1) (j 2)

theorem G_ix3 (X : (⟨3, ![16, 128, 16384]⟩ : Shape).Idx → EReal) (T : (⟨2, ![16, 256]⟩ : Shape).Idx → EReal)
    (W : (⟨3, ![128, 128, 1]⟩ : Shape).Idx → EReal) (M : (⟨2, ![128, 256]⟩ : Shape).Idx → EReal)
    (Bv : (⟨1, ![128]⟩ : Shape).Idx → EReal) (b : Fin 16) (o : Fin 128) (l : Fin 16384) :
    G X T W M Bv (ix3 b o l) = Gc X T W M Bv b o l := rfl

end Cert.ModConv

end
-- ==== Proof.RefIsSpec.lean ====
/-
  The reference computes `G`.

  The reference builds, for all 16 samples at once, the scale `t · mod_wᵀ + mod_b + 1`, the modulated weights
  `conv_w[o, i] · scale[b, i]`, their row sums of squares, the demodulation `rsqrt(· + ε)` and the demodulated weights, each
  as a broadcast of the smaller array, and ends with one batched contraction over the input channels.  Read at
  coordinates, every broadcast picks the coordinates it keeps, the contractions are sums over the contracted coordinate,
  and the sum's start value is the zero word: stage by stage these are the definitions of `Cert.ModConv`.
-/
import proofs.«128841_j30296699306039_2_alg».proof.Proof.Gen.ReferenceIdeal.Read
import proofs.«128841_j30296699306039_2_alg».proof.Proof.Spec

noncomputable section

namespace Cert.ModConv.Ref

open Idealize.ShloMosaic Idealize.ShloMosaic.ValueIdx Cert.ReferenceIdeal Cert.ReferenceIdeal.Read Cert.ModConv

variable (X : (⟨S16x128x16384, .f32⟩ : BufTy).Contents (Elt Ideal)) (T : (⟨S16x256, .f32⟩ : BufTy).Contents (Elt Ideal))
  (W : (⟨S128x128x1, .f32⟩ : BufTy).Contents (Elt Ideal)) (M : (⟨S128x256, .f32⟩ : BufTy).Contents (Elt Ideal))
  (Bv : (⟨S128, .f32⟩ : BufTy).Contents (Elt Ideal))

/-- Sample `b`'s scale, from the argument arrays. -/
abbrev sc (b : Fin 16) : Fin 128 → EReal :=
  scale (fun q => T (ix2 b q)) (fun i q => M (ix2 i q)) (fun i => Bv (ix1 i))

/-- Sample `b`'s modulated weights, from the argument arrays. -/
abbrev bw (b : Fin 16) : Fin 128 → Fin 128 → EReal :=
  modw (fun o i => W (ix3 o i (0 : Fin 1))) (sc T M Bv b)

/-- `t · mod_wᵀ` at `(b, i)`: the contraction reads `t` at `(b, q)` and the transposed weights at `(q, i)`, that is
    `mod_w` at `(i, q)`. -/
theorem v1_at (b : Fin 16) (i : Fin 128) :
    val_main_v1 (F := Ideal) T M (ix2 b i) = ∑ q : Fin 256, T (ix2 b q) * M (ix2 i q) := by
  rw [val_main_v1_apply]
  refine Finset.sum_congr rfl fun q _ => ?_
  rw [val_main_v0_apply]
  have e1 : lidx_main_v1 (ix2 b i) q = ix2 b q :=
    funext fun a => Fin.ext (by match a with | ⟨0, _⟩ => rfl | ⟨1, _⟩ => rfl)
  have e2 : idx_main_v0 (ridx_main_v1 (ix2 b i) q) = ix2 i q :=
    funext fun a => Fin.ext (by match a with | ⟨0, _⟩ => rfl | ⟨1, _⟩ => rfl)
  rw [e1, e2]

/-- The scale at `(b, i)`: the bias is broadcast along the samples and the literal one everywhere. -/
theorem v6_at (b : Fin 16) (i : Fin 128) :
    val_main_v6 (F := Ideal) T M Bv (ix2 b i) = sc T M Bv b i := by
  rw [val_main_v6_apply, val_main_v4_apply, v1_at, val_main_v3_apply, val_main_v2_apply, val_main_v5_apply,
    val_main_cst_apply]
  have e : idx_main_v2 (idx_main_v3 (ix2 b i)) = ix1 i :=
    funext fun a => Fin.ext (by match a with | ⟨0, _⟩ => rfl)
  rw [e]
  rfl

/-- The modulated weight at `(b, o, i)`: the weights (their trailing unit axis dropped) are broadcast along the samples,
    the scale along the output channels. -/
theorem v12_at (b : Fin 16) (o i : Fin 128) :
    val_main_v12 (F := Ideal) T W M Bv (ix3 b o i) = bw T W M Bv b o i := by
  rw [val_main_v12_apply, val_main_v10_apply, val_main_v8_apply, val_main_v7_apply, val_main_v11_apply,
    val_main_v9_apply]
  have e1 : idx_main_v7 (idx_main_v8 (idx_main_v10 (ix3 b o i))) = ix3 o i (0 : Fin 1) :=
    funext fun a => Fin.ext (by
      match a with
      | ⟨0, _⟩ => show (o.val * 128 + i.val) / 128 = o.val; have := i.isLt; omega
      | ⟨1, _⟩ => show (o.val * 128 + i.val) / 1 % 128 = i.val; have := i.isLt; omega
      | ⟨2, _⟩ => rfl)
  have e2 : idx_main_v9 (idx_main_v11 (ix3 b o i)) = ix2 b i :=
    funext fun a => Fin.ext (by match a with | ⟨0, _⟩ => rfl | ⟨1, _⟩ => rfl)
  rw [e1, e2, v6_at]
  rfl

/-- The sum of squares of row `o` of sample `b`'s modulated weights: the sum starts from the zero word. -/
theorem v14_at (b : Fin 16) (o : Fin 128) :
    val_main_v14 (F := Ideal) T W M Bv (ix2 b o) = ∑ i : Fin 128, bw T W M Bv b o i * bw T W M Bv b o i := by
  rw [val_main_v14_apply, val_main_cst_0_apply, Ideal.ofBits_def, Ideal.ofBits_zero_f32, zero_add]
  refine Finset.sum_congr rfl fun k _ => ?_
  have e : idx_main_v14 (ix2 b o) k = ix3 b o k :=
    funext fun a => Fin.ext (by match a with | ⟨0, _⟩ => rfl | ⟨1, _⟩ => rfl | ⟨2, _⟩ => rfl)
  rw [e, val_main_v13_apply, v12_at]
  rfl

/-- The demodulation at `(b, o)`. -/
theorem v17_at (b : Fin 16) (o : Fin 128) :
    val_main_v17 (F := Ideal) T W M Bv (ix2 b o) = demod (bw T W M Bv b) o := by
  rw [val_main_v17_apply, val_main_v16_apply, v14_at, val_main_v15_apply, val_main_cst_1_apply]
  rfl

/-- The demodulated weight at `(b, o, i)`: the demodulation is broadcast along the input channels. -/
theorem v20_at (b : Fin 16) (o i : Fin 128) :
    val_main_v20 (F := Ideal) T W M Bv (ix3 b o i) = bw T W M Bv b o i * demod (bw T W M Bv b) o := by
  rw [val_main_v20_apply, v12_at, val_main_v19_apply, val_main_v18_apply]
  have e : idx_main_v18 (idx_main_v19 (ix3 b o i)) = ix2 b o :=
    funext fun a => Fin.ext (by match a with | ⟨0, _⟩ => rfl | ⟨1, _⟩ => rfl)
  rw [e, v17_at]
  rfl

/-- The result at `(b, o, l)`: the batched contraction reads the demodulated weights at `(b, o, i)` and `x` at `(b, i, l)`. -/
theorem v21_at (b : Fin 16) (o : Fin 128) (l : Fin 16384) :
    val_main_v21 (F := Ideal) X T W M Bv (ix3 b o l) = Gc X T W M Bv b o l := by
  rw [val_main_v21_apply]
  unfold Gc core
  refine Finset.sum_congr rfl fun k _ => ?_
  have e1 : lidx_main_v21 (ix3 b o l) k = ix3 b o k :=
    funext fun a => Fin.ext (by match a with | ⟨0, _⟩ => rfl | ⟨1, _⟩ => rfl | ⟨2, _⟩ => rfl)
  have e2 : ridx_main_v21 (ix3 b o l) k = ix3 b k l :=
    funext fun a => Fin.ext (by match a with | ⟨0, _⟩ => rfl | ⟨1, _⟩ => rfl | ⟨2, _⟩ => rfl)
  rw [e1, e2, v20_at]

/-- The reference's last stage is `G` of the argument arrays. -/
theorem ref_eq : val_main_v21 (F := Ideal) X T W M Bv = G X T W M Bv := by
  funext j
  obtain ⟨b, o, l, rfl⟩ : ∃ (b : Fin 16) (o : Fin 128) (l : Fin 16384), j = ix3 b o l := ⟨j 0, j 1, j 2, eq_ix3 j⟩
  exact v21_at X T W M Bv b o l

end Cert.ModConv.Ref

end
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.Payload.lean ====
/-
  What the kernel body stores, at coordinates.

  At one grid point the body holds the sample's style row `x0` ([1, 1, 256]), the modulation weights `x1` ([128, 256]) and
  bias `x2` ([1, 128]), the convolution weights `x3` ([128, 128]) and a slab `x4` ([1, 128, 8192]) of the sample's input.
  It forms the scale as a one-row matrix product plus the bias row plus one, broadcasts that row over the 128 output
  channels and multiplies the weights by it, sums each row's squares along the lanes, adds `ε`, takes the reciprocal root
  as a column, broadcasts the column over the 128 input channels, and contracts the demodulated weights with the slab.
  The two roundings to bf16 on the way into the last product change nothing over the extended reals, and both products
  start from a zero accumulator.  So the stored block at `(·, o, l)` is `Cert.ModConv.core` of the loaded blocks read at
  coordinates, with the slab's column `l`.
-/
import proofs.«128841_j30296699306039_2_alg».proof.Proof.Gen.KernelIdeal.Skeleton
import proofs.«128841_j30296699306039_2_alg».proof.Proof.Spec
import proofs.«128841_j30296699306039_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.ModConv.Body

open Idealize.ShloMosaic Idealize.ShloMosaic.ValueIdx Cert.KernelIdeal Cert.KernelIdeal.Gen Cert.ModConv

/-! ## The two matrix products and the row sum as plain sums -/

/-- The one-row product `l · rᵀ` (both operands contracted along their second axis) into the zero accumulator, at
    `(u, i)`: the sum over `q` of `l (u, q) · r (i, q)`. -/
theorem rowProduct_at (l : FVec Ideal S1x256 .f32) (r : FVec Ideal S128x256 .f32) (u : Fin 1) (i : Fin 128) :
    matmul dot_S1x256_S128x256_S1x128_1_1_0_0_n_n none l r (constant S1x128 .f32 0x00000000#32) (ix2 u i)
      = ∑ q : Fin 256, l (ix2 u q) * r (ix2 i q) := by
  simp only [matmul]
  rw [Ideal.matmul_constant_zero_apply,
    ← Equiv.sum_comp (contrEquiv1 dot_S1x256_S128x256_S1x128_1_1_0_0_n_n 256 rfl rfl).symm]
  refine Finset.sum_congr rfl fun q _ => ?_
  have hq := contrEquiv1_symm_val dot_S1x256_S128x256_S1x128_1_1_0_0_n_n 256 rfl rfl q
  have el : dot_S1x256_S128x256_S1x128_1_1_0_0_n_n.lhsIdx (ix2 u i)
      ((contrEquiv1 dot_S1x256_S128x256_S1x128_1_1_0_0_n_n 256 rfl rfl).symm q) = ix2 u q :=
    funext fun a => Fin.ext (by
      match a with
      | ⟨0, _⟩ => rfl
      | ⟨1, _⟩ => exact (dot_S1x256_S128x256_S1x128_1_1_0_0_n_n.lhsIdx_val_of_single rfl _ _).trans hq)
  have er : dot_S1x256_S128x256_S1x128_1_1_0_0_n_n.rhsIdx (ix2 u i)
      ((contrEquiv1 dot_S1x256_S128x256_S1x128_1_1_0_0_n_n 256 rfl rfl).symm q) = ix2 i q :=
    funext fun a => Fin.ext (by
      match a with
      | ⟨0, _⟩ => rfl
      | ⟨1, _⟩ => exact (dot_S1x256_S128x256_S1x128_1_1_0_0_n_n.rhsIdx_val_of_single rfl _ _).trans hq)
  rw [el, er]

/-- The product `l · r` of a [128, 128] matrix with a [128, 8192] one into the zero accumulator, at `(o, c)`: the sum over
    `i` of `l (o, i) · r (i, c)`. -/
theorem product_at (l : FVec Ideal S128x128 .bf16) (r : FVec Ideal S128x8192 .bf16) (o : Fin 128) (c : Fin 8192) :
    matmul dot_S128x128_S128x8192_S128x8192_1_0_0_1_n_n none l r (constant S128x8192 .f32 0x00000000#32) (ix2 o c)
      = ∑ i : Fin 128, l (ix2 o i) * r (ix2 i c) := by
  simp only [matmul]
  rw [Ideal.matmul_constant_zero_apply,
    ← Equiv.sum_comp (contrEquiv1 dot_S128x128_S128x8192_S128x8192_1_0_0_1_n_n 128 rfl rfl).symm]
  refine Finset.sum_congr rfl fun i _ => ?_
  have hi := contrEquiv1_symm_val dot_S128x128_S128x8192_S128x8192_1_0_0_1_n_n 128 rfl rfl i
  have el : dot_S128x128_S128x8192_S128x8192_1_0_0_1_n_n.lhsIdx (ix2 o c)
      ((contrEquiv1 dot_S128x128_S128x8192_S128x8192_1_0_0_1_n_n 128 rfl rfl).symm i) = ix2 o i :=
    funext fun a => Fin.ext (by
      match a with
      | ⟨0, _⟩ => rfl
      | ⟨1, _⟩ => exact (dot_S128x128_S128x8192_S128x8192_1_0_0_1_n_n.lhsIdx_val_of_single rfl _ _).trans hi)
  have er : dot_S128x128_S128x8192_S128x8192_1_0_0_1_n_n.rhsIdx (ix2 o c)
      ((contrEquiv1 dot_S128x128_S128x8192_S128x8192_1_0_0_1_n_n 128 rfl rfl).symm i) = ix2 i c :=
    funext fun a => Fin.ext (by
      match a with
      | ⟨0, _⟩ => exact (dot_S128x128_S128x8192_S128x8192_1_0_0_1_n_n.rhsIdx_val_of_single rfl _ _).trans hi
      | ⟨1, _⟩ => rfl)
  rw [el, er]

/-- The lane sum of a [128, 128] array from the zero word, at row `o`: the sum over `i` of the row's entries. -/
theorem rowSum_at (src : FVec Ideal S128x128 .f32) (o : Fin 128) :
    multiReduction (F := Ideal) .add [1] S128 src 0x00000000#32 reduces_S128x128_S128 (.inl rfl) rfl (ix1 o)
      = ∑ i : Fin 128, src (ix2 o i) := by
  refine (Ideal.multiReduction_add_single src 0x00000000#32 reduces_S128x128_S128 (.inl rfl) rfl (ix1 o)).trans ?_
  refine Finset.sum_congr rfl fun k _ => congrArg src (funext fun a => Fin.ext ?_)
  match a with
  | ⟨0, _⟩ => rfl
  | ⟨1, _⟩ => rfl

/-! ## The body's intermediate values, named -/

variable (x0 : FVec Ideal S1x1x256 .f32) (x1 : FVec Ideal S128x256 .f32) (x2 : FVec Ideal S1x128 .f32)
  (x3 : FVec Ideal S128x128 .f32) (x4 : FVec Ideal S1x128x8192 .f32)

/-- The scale, as the body holds it: one row. -/
def scaleRow : FVec Ideal S1x128 .f32 :=
  addf (addf (matmul dot_S1x256_S128x256_S1x128_1_1_0_0_n_n none (shapeCast S1x256 x0 shapeCasts_S1x1x256_S1x256) x1
      (constant (F := Ideal) S1x128 .f32 0x00000000#32)) (shapeCast S1x128 x2 shapeCasts_S1x128_S1x128))
    (broadcast S1x128 (Scalar.ofBits (F := Ideal) .f32 0x3F800000#32))

/-- The modulated weights. -/
def modWeights : FVec Ideal S128x128 .f32 :=
  mulf (shapeCast S128x128 x3 shapeCasts_S128x128_S128x128)
    (broadcastTo S128x128 (scaleRow x0 x1 x2) broadcasts_S1x128_S128x128)

/-- The demodulation, as the body holds it: one column. -/
def demodCol : FVec Ideal S128x1 .f32 :=
  rsqrt (addf (shapeCast S128x1 (multiReduction (F := Ideal) .add [1] S128
      (mulf (modWeights x0 x1 x2 x3) (modWeights x0 x1 x2 x3)) 0x00000000#32 reduces_S128x128_S128 (.inl rfl) rfl)
      shapeCasts_S128_S128x1) (broadcast S128x1 (Scalar.ofBits (F := Ideal) .f32 0x322BCC77#32)))

/-- The demodulated weights. -/
def demodWeights : FVec Ideal S128x128 .f32 :=
  mulf (modWeights x0 x1 x2 x3) (broadcastTo S128x128 (demodCol x0 x1 x2 x3) broadcasts_S128x1_S128x128)

/-- The stored value is the product of the demodulated weights with the slab, under a leading unit axis. -/
theorem payload_eq : k0_pay1 x0 x1 x2 x3 x4 = shapeCast S1x128x8192
    (matmul dot_S128x128_S128x8192_S128x8192_1_0_0_1_n_n none (truncf .bf16 (demodWeights x0 x1 x2 x3) bitsLt_bf16_f32)
      (truncf .bf16 (shapeCast S128x8192 x4 shapeCasts_S1x128x8192_S128x8192) bitsLt_bf16_f32)
      (constant (F := Ideal) S128x8192 .f32 0x00000000#32)) shapeCasts_S128x8192_S1x128x8192 := rfl

/-! ## Each of them at coordinates -/

/-- The loaded blocks read at coordinates. -/
abbrev tRow : Fin 256 → EReal := fun q => x0 (ix3 (0 : Fin 1) (0 : Fin 1) q)
abbrev mwAt : Fin 128 → Fin 256 → EReal := fun i q => x1 (ix2 i q)
abbrev mbAt : Fin 128 → EReal := fun i => x2 (ix2 (0 : Fin 1) i)
abbrev wAt : Fin 128 → Fin 128 → EReal := fun o i => x3 (ix2 o i)

theorem scaleRow_at (i : Fin 128) :
    scaleRow x0 x1 x2 (ix2 (0 : Fin 1) i) = scale (tRow x0) (mwAt x1) (mbAt x2) i := by
  unfold scaleRow scale
  rw [addf_apply, addf_apply, rowProduct_at, shapeCast_self, broadcast_apply]
  refine congrArg (· + _ + _) (Finset.sum_congr rfl fun q _ => ?_)
  rw [shapeCast_1ab_ab_apply]

theorem modWeights_at (o i : Fin 128) :
    modWeights x0 x1 x2 x3 (ix2 o i) = modw (wAt x3) (scale (tRow x0) (mwAt x1) (mbAt x2)) o i := by
  unfold modWeights modw
  rw [mulf_apply, shapeCast_self, broadcastTo_1b_ab_apply, scaleRow_at]

theorem demodCol_at (o : Fin 128) :
    demodCol x0 x1 x2 x3 (ix2 o (0 : Fin 1)) = demod (modw (wAt x3) (scale (tRow x0) (mwAt x1) (mbAt x2))) o := by
  unfold demodCol demod
  show Ideal.rsqrt (_ + _) = _
  rw [Cert.LibKeepdims.shapeCast_a_a1_apply, rowSum_at]
  refine congrArg (fun s => Ideal.rsqrt (s + _)) (Finset.sum_congr rfl fun i _ => ?_)
  rw [mulf_apply, modWeights_at]

theorem demodWeights_at (o i : Fin 128) :
    demodWeights x0 x1 x2 x3 (ix2 o i)
      = modw (wAt x3) (scale (tRow x0) (mwAt x1) (mbAt x2)) o i
        * demod (modw (wAt x3) (scale (tRow x0) (mwAt x1) (mbAt x2))) o := by
  unfold demodWeights
  rw [mulf_apply, modWeights_at, Cert.LibKeepdims.broadcastTo_a1_ab_apply, demodCol_at]

/-- THE STORED BLOCK at `(u, o, l)`: `core` of the loaded blocks at coordinates, with column `l` of the slab. -/
theorem payload_at (u : Fin 1) (o : Fin 128) (l : Fin 8192) :
    k0_pay1 (F := Ideal) x0 x1 x2 x3 x4 (ix3 u o l)
      = core (tRow x0) (mwAt x1) (mbAt x2) (wAt x3) (fun i => x4 (ix3 (0 : Fin 1) i l)) o := by
  rw [payload_eq, shapeCast_ab_1ab_apply, product_at]
  unfold core
  refine Finset.sum_congr rfl fun i _ => ?_
  rw [truncf_apply, truncf_apply, demodWeights_at, shapeCast_1ab_ab_apply]

end Cert.ModConv.Body

end
-- ==== Proof.Point.lean ====
/-
  One grid point writes one block of `G`.

  Suppose the five loaded blocks are what the windows cut out of the arrays at sample `b` and lane offset `base`: the style
  block is row `b` of the style, the three resident blocks are the whole modulation weights, bias and convolution weights,
  and the slab is sample `b`'s input at lanes `base + l`.  Then the stored block at `(·, o, l)` is `G` of the arrays at
  `(b, o, base + l)`: both are `core` of the same coordinate functions.
-/
import proofs.«128841_j30296699306039_2_alg».proof.Proof.Payload

noncomputable section

namespace Cert.ModConv.Body

open Idealize.ShloMosaic Idealize.ShloMosaic.ValueIdx Cert.KernelIdeal Cert.KernelIdeal.Gen Cert.ModConv

theorem block_is_G
    (X : (⟨3, ![16, 128, 16384]⟩ : Shape).Idx → EReal) (T : (⟨2, ![16, 256]⟩ : Shape).Idx → EReal)
    (W : (⟨3, ![128, 128, 1]⟩ : Shape).Idx → EReal) (M : (⟨2, ![128, 256]⟩ : Shape).Idx → EReal)
    (Bv : (⟨1, ![128]⟩ : Shape).Idx → EReal)
    (x0 : FVec Ideal S1x1x256 .f32) (x1 : FVec Ideal S128x256 .f32) (x2 : FVec Ideal S1x128 .f32)
    (x3 : FVec Ideal S128x128 .f32) (x4 : FVec Ideal S1x128x8192 .f32)
    (b : Fin 16) (base : Nat)
    (h0 : ∀ q : Fin 256, x0 (ix3 (0 : Fin 1) (0 : Fin 1) q) = T (ix2 b q))
    (h1 : ∀ (i : Fin 128) (q : Fin 256), x1 (ix2 i q) = M (ix2 i q))
    (h2 : ∀ i : Fin 128, x2 (ix2 (0 : Fin 1) i) = Bv (ix1 i))
    (h3 : ∀ o i : Fin 128, x3 (ix2 o i) = W (ix3 o i (0 : Fin 1)))
    (h4 : ∀ (i : Fin 128) (l : Fin 8192) (l' : Fin 16384), l'.val = base + l.val →
      x4 (ix3 (0 : Fin 1) i l) = X (ix3 b i l'))
    (y : (⟨3, ![1, 128, 8192]⟩ : Shape).Idx) (j : (⟨3, ![16, 128, 16384]⟩ : Shape).Idx)
    (hj0 : (j 0).val = b.val) (hj1 : (j 1).val = (y 1).val) (hj2 : (j 2).val = base + (y 2).val) :
    k0_pay1 (F := Ideal) x0 x1 x2 x3 x4 y = G X T W M Bv j := by
  obtain ⟨u, o, l, rfl⟩ : ∃ (u : Fin 1) (o : Fin 128) (l : Fin 8192), y = ix3 u o l := ⟨y 0, y 1, y 2, eq_ix3 y⟩
  obtain ⟨jb, jo, jl, rfl⟩ : ∃ (jb : Fin 16) (jo : Fin 128) (jl : Fin 16384), j = ix3 jb jo jl :=
    ⟨j 0, j 1, j 2, eq_ix3 j⟩
  have e0 : jb = b := Fin.ext hj0
  have e1 : jo = o := Fin.ext hj1
  subst e0 e1
  have t0 : tRow x0 = fun q => T (ix2 jb q) := funext h0
  have t1 : mwAt x1 = fun i q => M (ix2 i q) := funext fun i => funext fun q => h1 i q
  have t2 : mbAt x2 = fun i => Bv (ix1 i) := funext h2
  have t3 : wAt x3 = fun o i => W (ix3 o i (0 : Fin 1)) := funext fun o => funext fun i => h3 o i
  have t4 : (fun i => x4 (ix3 (0 : Fin 1) i l)) = fun i => X (ix3 jb i jl) := funext fun i => h4 i l jl hj2
  rw [payload_at, G_ix3, t0, t1, t2, t3, t4]
  rfl

end Cert.ModConv.Body

end
-- ==== Proof.Entry.lean ====
/-
  What the region finds in the three arrays the host writes before it.

  Before the call the host re-lays three arguments without changing a value: the convolution weights lose their trailing
  unit axis ([128, 128, 1] as [128, 128]), the bias becomes one row ([128] as [1, 128]) and the style gains a unit axis
  ([16, 256] as [16, 1, 256]).  Each re-laid array, read at coordinates, is the argument at the coordinates with the same
  row-major position.
-/
import proofs.«128841_j30296699306039_2_alg».proof.Proof.Gen.KernelIdeal.Frame
import Idealize.ShloMosaic.Lib.StableHlo.Run
import Idealize.ShloMosaic.Lib.ValueLayout
import Idealize.ShloMosaic.Lib.ValueIdx
import Idealize.ShloMosaic.Lib.Pipeline.Value

noncomputable section

namespace Cert.ModConv.Entry

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The weights as the region finds them: the argument without its trailing unit axis. -/
theorem weights_eq (c : Dev nD) :
    (V m c main_v0 : S128x128.Idx → EReal)
      = shapeCast S128x128 (m ((c : Thread nD τ).loc main_arg2)) shapeCasts_S128x128x1_S128x128 := by
  dsimp only [Gen.V, Gen.hostOps0]; after_results; rfl

/-- The bias as the region finds it: the argument as one row. -/
theorem bias_eq (c : Dev nD) :
    (V m c main_v1 : S1x128.Idx → EReal)
      = shapeCast S1x128 (m ((c : Thread nD τ).loc main_arg4)) shapeCasts_S128_S1x128 := by
  dsimp only [Gen.V, Gen.hostOps0]; after_results; rfl

/-- The style as the region finds it: the argument with a unit axis between its two. -/
theorem style_eq (c : Dev nD) :
    (V m c main_v2 : S16x1x256.Idx → EReal)
      = shapeCast S16x1x256 (m ((c : Thread nD τ).loc main_arg1)) shapeCasts_S16x256_S16x1x256 := by
  dsimp only [Gen.V, Gen.hostOps0]; after_results; rfl

theorem weights_at (c : Dev nD) (o i : Fin 128) :
    (V m c main_v0 : S128x128.Idx → EReal) (ix2 o i)
      = (m ((c : Thread nD τ).loc main_arg2) : S128x128x1.Idx → EReal) (ix3 o i (0 : Fin 1)) := by
  rw [weights_eq]
  exact shapeCast_apply _ shapeCasts_S128x128x1_S128x128 _ _ (by
    rw [Shape.rowMajor_val_three, Shape.rowMajor_val_two]
    show (o.val * 128 + i.val) * 1 + 0 = o.val * 128 + i.val
    omega)

theorem bias_at (c : Dev nD) (i : Fin 128) :
    (V m c main_v1 : S1x128.Idx → EReal) (ix2 (0 : Fin 1) i)
      = (m ((c : Thread nD τ).loc main_arg4) : S128.Idx → EReal) (ix1 i) := by
  rw [bias_eq]
  exact shapeCast_a_1a_apply _ shapeCasts_S128_S1x128 (0 : Fin 1) i

theorem style_at (c : Dev nD) (b : Fin 16) (q : Fin 256) :
    (V m c main_v2 : S16x1x256.Idx → EReal) (ix3 b (0 : Fin 1) q)
      = (m ((c : Thread nD τ).loc main_arg1) : S16x256.Idx → EReal) (ix2 b q) := by
  rw [style_eq]
  exact shapeCast_apply _ shapeCasts_S16x256_S16x1x256 _ _ (by
    rw [Shape.rowMajor_val_two, Shape.rowMajor_val_three]
    show b.val * 256 + q.val = (b.val * 1 + 0) * 256 + q.val
    omega)

end Cert.ModConv.Entry

end
-- ==== Proof.Blocks.lean ====
/-
  From the blocks to the whole result array.

  The grid has 16 × 2 points: point `(b, h)` works on sample `b` and on half `h` of the 16384 lanes.  There the style
  window holds row `b` of the style, the three resident windows hold their whole arrays, the input window holds sample
  `b`'s channels at lanes `8192·h + l`, and the output window's block is `(b, ·, 8192·h + l)` of the result.  So what each
  point writes back is its block of `G` of the argument arrays; the 32 blocks tile the result (the block holding index
  `(b, o, l)` is that of point `(b, l / 8192)`), and the result array ends as `G`.
-/
import proofs.«128841_j30296699306039_2_alg».proof.Proof.Gen.KernelIdeal.Value
import proofs.«128841_j30296699306039_2_alg».proof.Proof.Point
import proofs.«128841_j30296699306039_2_alg».proof.Proof.Entry

set_option maxRecDepth 16384

noncomputable section

namespace Cert.ModConv.Blocks

open Idealize.ShloMosaic Idealize.ShloMosaic.TcCoe Idealize.ShloMosaic.ValueIdx Idealize.SL.Sem
open Cert.KernelIdeal Cert.KernelIdeal.Gen Cert.ModConv
open Idealize.ShloMosaic.Pipeline (Dat)

variable (m : (ℓ : Loc nD τ sig) → Buf (Elt Ideal) ℓ) (ρ : Dev nD → PrngReg)

/-- `G` of the argument arrays as launched on core `c`. -/
abbrev Gm (c : Dev nD) : S16x128x16384.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the 32 points: the style and input windows follow the output's sample, the
    input window also its half of the lanes, every other block index is zero, and the output's stay in range. -/
theorem idx_facts : ∀ t : Fin cfg0.N,
    win0_0.index t (0 : Fin 3) = win0_5.index t (0 : Fin 3) ∧ win0_0.index t (1 : Fin 3) = 0
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = win0_5.index t (0 : Fin 3) ∧ win0_4.index t (1 : Fin 3) = 0
    ∧ win0_4.index t (2 : Fin 3) = win0_5.index t (2 : Fin 3)
    ∧ win0_5.index t (0 : Fin 3) < 16 ∧ win0_5.index t (1 : Fin 3) = 0 ∧ win0_5.index t (2 : Fin 3) < 2 :=
  (by decide +kernel : ∀ t : Fin grid0.N, _)

/-- Every (sample, half) is some point's. -/
theorem idx_onto : ∀ (q0 : Fin 16) (q2 : Fin 2), ∃ t : Fin cfg0.N, win0_5.index t = ![q0.val, 0, q2.val] :=
  (by decide +kernel : ∀ (q0 : Fin 16) (q2 : Fin 2), ∃ t : Fin grid0.N, win0_5.index t = ![q0.val, 0, q2.val])

/-! ## Each window's block, read -/

/-- The style block at point `t` is row `b` of the style, `b` the point's sample. -/
theorem style_block (c : Dev nD) (t : Fin cfg0.N) (b : Fin 16) (e0 : win0_0.index t (0 : Fin 3) = b.val)
    (e1 : win0_0.index t (1 : Fin 3) = 0) (e2 : win0_0.index t (2 : Fin 3) = 0) (q : Fin 256) :
    iblk m c 0 t (ix3 (0 : Fin 1) (0 : Fin 1) q)
      = (m ((c : Thread nD τ).loc main_arg1) : S16x256.Idx → EReal) (ix2 b q) := by
  show (V m c main_v2 : S16x1x256.Idx → EReal) (((cfg0.win 0).blk t).view.emb (ix3 (0 : Fin 1) (0 : Fin 1) q)) = _
  have e : ((cfg0.win 0).blk t).view.emb (ix3 (0 : Fin 1) (0 : Fin 1) q) = ix3 b (0 : Fin 1) q := by
    funext a; apply Fin.ext
    match a with
    | ⟨0, _⟩ => show win0_0.index t (0 : Fin 3) * 1 + 1 * 0 = b.val; omega
    | ⟨1, _⟩ => show win0_0.index t (1 : Fin 3) * 1 + 1 * 0 = 0; omega
    | ⟨2, _⟩ => show win0_0.index t (2 : Fin 3) * 256 + 1 * q.val = q.val; omega
  rw [e]
  exact Entry.style_at m c b q

/-- The modulation weights' block is the whole argument. -/
theorem modw_block (c : Dev nD) (t : Fin cfg0.N) (e0 : win0_1.index t (0 : Fin 2) = 0)
    (e1 : win0_1.index t (1 : Fin 2) = 0) (i : Fin 128) (q : Fin 256) :
    iblk m c 1 t (ix2 i q) = (m ((c : Thread nD τ).loc main_arg3) : S128x256.Idx → EReal) (ix2 i q) := by
  show (V m c main_arg3 : S128x256.Idx → EReal) (((cfg0.win 1).blk t).view.emb (ix2 i q)) = _
  have e : ((cfg0.win 1).blk t).view.emb (ix2 i q) = ix2 i q := by
    funext a; apply Fin.ext
    match a with
    | ⟨0, _⟩ => show win0_1.index t (0 : Fin 2) * 128 + 1 * i.val = i.val; omega
    | ⟨1, _⟩ => show win0_1.index t (1 : Fin 2) * 256 + 1 * q.val = q.val; omega
  rw [e, V_main_arg3]

/-- The bias block is the argument as one row. -/
theorem bias_block (c : Dev nD) (t : Fin cfg0.N) (e0 : win0_2.index t (0 : Fin 2) = 0)
    (e1 : win0_2.index t (1 : Fin 2) = 0) (i : Fin 128) :
    iblk m c 2 t (ix2 (0 : Fin 1) i) = (m ((c : Thread nD τ).loc main_arg4) : S128.Idx → EReal) (ix1 i) := by
  show (V m c main_v1 : S1x128.Idx → EReal) (((cfg0.win 2).blk t).view.emb (ix2 (0 : Fin 1) i)) = _
  have e : ((cfg0.win 2).blk t).view.emb (ix2 (0 : Fin 1) i) = ix2 (0 : Fin 1) i := by
    funext a; apply Fin.ext
    match a with
    | ⟨0, _⟩ => show win0_2.index t (0 : Fin 2) * 1 + 1 * 0 = 0; omega
    | ⟨1, _⟩ => show win0_2.index t (1 : Fin 2) * 128 + 1 * i.val = i.val; omega
  rw [e]
  exact Entry.bias_at m c i

/-- The convolution weights' block is the argument without its unit axis. -/
theorem weights_block (c : Dev nD) (t : Fin cfg0.N) (e0 : win0_3.index t (0 : Fin 2) = 0)
    (e1 : win0_3.index t (1 : Fin 2) = 0) (o i : Fin 128) :
    iblk m c 3 t (ix2 o i)
      = (m ((c : Thread nD τ).loc main_arg2) : S128x128x1.Idx → EReal) (ix3 o i (0 : Fin 1)) := by
  show (V m c main_v0 : S128x128.Idx → EReal) (((cfg0.win 3).blk t).view.emb (ix2 o i)) = _
  have e : ((cfg0.win 3).blk t).view.emb (ix2 o i) = ix2 o i := by
    funext a; apply Fin.ext
    match a with
    | ⟨0, _⟩ => show win0_3.index t (0 : Fin 2) * 128 + 1 * o.val = o.val; omega
    | ⟨1, _⟩ => show win0_3.index t (1 : Fin 2) * 128 + 1 * i.val = i.val; omega
  rw [e]
  exact Entry.weights_at m c o i

/-- The input block at point `t` is sample `b`'s channels at the lanes of the point's half. -/
theorem input_block (c : Dev nD) (t : Fin cfg0.N) (b : Fin 16) (base : Nat) (e0 : win0_4.index t (0 : Fin 3) = b.val)
    (e1 : win0_4.index t (1 : Fin 3) = 0) (e2 : win0_4.index t (2 : Fin 3) * 8192 = base)
    (i : Fin 128) (l : Fin 8192) (l' : Fin 16384) (hl : l'.val = base + l.val) :
    iblk m c 4 t (ix3 (0 : Fin 1) i l)
      = (m ((c : Thread nD τ).loc main_arg0) : S16x128x16384.Idx → EReal) (ix3 b i l') := by
  show (V m c main_arg0 : S16x128x16384.Idx → EReal) (((cfg0.win 4).blk t).view.emb (ix3 (0 : Fin 1) i l)) = _
  have e : ((cfg0.win 4).blk t).view.emb (ix3 (0 : Fin 1) i l) = ix3 b i l' := by
    funext a; apply Fin.ext
    match a with
    | ⟨0, _⟩ => show win0_4.index t (0 : Fin 3) * 1 + 1 * 0 = b.val; omega
    | ⟨1, _⟩ => show win0_4.index t (1 : Fin 3) * 128 + 1 * i.val = i.val; omega
    | ⟨2, _⟩ => show win0_4.index t (2 : Fin 3) * 8192 + 1 * l.val = l'.val; rw [e2, Nat.one_mul, hl]
  rw [e, V_main_arg0]

/-! ## What a point writes back -/

/-- WHAT POINT `t` WRITES BACK is block `t` of `G` of the argument arrays. -/
theorem flushed_eq (c : Dev nD) (t : Fin cfg0.N) :
    (dats m 0 c).flushed 5 t = ((cfg0.win 5).blk t).view.read (Elt Ideal) (Gm m c) := by
  rw [Cert.KernelIdeal.Value.flushed5]
  unfold out0_5
  rw [View.canon_unit_zero zeros3]
  simp only [View.ld_unit_zero (S := S1x1x256) zeros3, View.ld_unit_zero (S := S128x256) zeros2,
    View.ld_unit_zero (S := S1x128) zeros2, View.ld_unit_zero (S := S128x128) zeros2,
    View.ld_unit_zero (S := S1x128x8192) zeros3]
  obtain ⟨e00, e01, e02, e10, e11, e20, e21, e30, e31, e40, e41, e42, hb, e51, hh⟩ := idx_facts t
  funext y
  show k0_pay1 (F := Ideal) (iblk m c 0 t) (iblk m c 1 t) (iblk m c 2 t) (iblk m c 3 t) (iblk m c 4 t) y
    = Gm m c (((cfg0.win 5).blk t).view.emb y)
  refine Body.block_is_G _ _ _ _ _ (iblk m c 0 t) (iblk m c 1 t) (iblk m c 2 t) (iblk m c 3 t) (iblk m c 4 t)
    ⟨win0_5.index t (0 : Fin 3), hb⟩ (win0_5.index t (2 : Fin 3) * 8192)
    (fun q => style_block m c t _ e00 e01 e02 q) (fun i q => modw_block m c t e10 e11 i q)
    (fun i => bias_block m c t e20 e21 i) (fun o i => weights_block m c t e30 e31 o i)
    (fun i l l' hl => input_block m c t _ _ e40 e41 (by rw [e42]) i l l' hl) y _ ?_ ?_ ?_
  · show win0_5.index t (0 : Fin 3) * 1 + 1 * (y 0).val = win0_5.index t (0 : Fin 3)
    have : (y 0).val < 1 := (y 0).isLt
    omega
  · show win0_5.index t (1 : Fin 3) * 128 + 1 * (y 1).val = (y 1).val
    omega
  · show win0_5.index t (2 : Fin 3) * 8192 + 1 * (y 2).val = win0_5.index t (2 : Fin 3) * 8192 + (y 2).val
    omega

/-! ## The blocks tile the result -/

/-- An index of the result is in point `t`'s block iff each coordinate is in the block's range on its axis. -/
theorem mem_blk (t : Fin cfg0.N) (i : S16x128x16384.Idx) :
    i ∈ ((cfg0.win 5).blk t).view.set ↔ ∀ a : Fin 3, win0_5.index t a * S1x128x8192.size a ≤ (i a).val
      ∧ (i a).val < win0_5.index t a * S1x128x8192.size a + S1x128x8192.size a := by
  show i ∈ ((View.whole main_v3).slice (win0_5.rect t)).set ↔ _
  rw [View.set_slice_whole, Rect.mem_set_unit]
  exact Iff.rfl

/-- Every index of the result is in the block of the point of its sample and its half of the lanes. -/
theorem cover (i : S16x128x16384.Idx) :
    ∃ t : Fin cfg0.N, (cfg0.win 5).flush t = true ∧ i ∈ ((cfg0.win 5).blk t).view.set := by
  have hi0 : (i 0).val < 16 := (i 0).isLt
  have hi1 : (i 1).val < 128 := (i 1).isLt
  have hi2 : (i 2).val < 16384 := (i 2).isLt
  obtain ⟨t, ht⟩ := idx_onto ⟨(i 0).val, hi0⟩ ⟨(i 2).val / 8192, by omega⟩
  have q0 : win0_5.index t (0 : Fin 3) = (i 0).val := congrFun ht 0
  have q1 : win0_5.index t (1 : Fin 3) = 0 := congrFun ht 1
  have q2 : win0_5.index t (2 : Fin 3) = (i 2).val / 8192 := congrFun ht 2
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 128 ≤ (i 1).val ∧ (i 1).val < win0_5.index t (1 : Fin 3) * 128 + 128
    omega
  | ⟨2, _⟩ =>
    show win0_5.index t (2 : Fin 3) * 8192 ≤ (i 2).val ∧ (i 2).val < win0_5.index t (2 : Fin 3) * 8192 + 8192
    omega

/-- THE RESULT ARRAY after the run is `G` of the argument arrays. -/
theorem final (c : Dev nD) : (dats m 0 c).arrAt 5 cfg0.N = Gm m c :=
  (dats m 0 c).arrAt_eq_of_cover 5 (Gm m c) (fun t _ => flushed_eq m c t) cover

/-- The kernel's run: every weakly fair execution terminates with the result at `G` of the arguments and the arguments
    unchanged. -/
theorem run : θ_run defs (onTc (τ := τ) (main (F := Ideal))) ⟨m, fun _ => 0, ρ⟩ fun r => ∀ c : Dev nD,
      r.2.mem ((c : Thread nD τ).loc main_v3) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.ModConv.Blocks

end
-- ==== Proof.lean ====
/-
  A modulated 1 × 1 convolution with demodulation, fused into one kernel, against its plain reference — equal over the
  extended reals.

  For sample `b` the style row `t[b, ·]` is mapped to a per-input-channel scale `∑ q, t[b, q] · mod_w[i, q] + mod_b[i] + 1`;
  the convolution weights are multiplied by it, `bw[o, i] = conv_w[o, i] · scale[i]`; each output channel is normalised by
  `rsqrt(∑ i, bw[o, i]² + ε)`; and the result is `out[b, o, l] = ∑ i, (bw[o, i] · demod[o]) · x[b, i, l]`.

  The kernel recomputes the sample's 128 × 128 demodulated weights at each of its 16 × 2 grid points (sample × half of the
  lanes) and contracts them with a 128 × 8192 slab of `x`; the reference computes all 16 weight matrices at once by
  broadcasting and ends with one batched contraction.  The two differ in how the arrays are laid out and cut, in a
  rounding to bf16 on the way into the kernel's last product (the identity over the extended reals), and in nothing else:
  the same operations in the same order with the same two literals.  So no algebraic law is needed beyond reading each
  side at coordinates, and the values are equal at every extended real, finite or not: the precondition is not used for
  the values.

  `Spec` states the common function `G`; `RefIsSpec` reads the reference's operations at coordinates; `Payload` and
  `Point` read what one grid point stores; `Entry` reads the three arrays the host re-lays before the call; `Blocks`
  puts the 32 written blocks together.  The three frames are the generated runs, and the idealization rewrote no
  operation, so there is nothing to preserve.
-/
import proofs.«128841_j30296699306039_2_alg».proof.Defs
import proofs.«128841_j30296699306039_2_alg».proof.Proof.Gen.Kernel
import proofs.«128841_j30296699306039_2_alg».proof.Proof.Gen.Kernel.Frame
import proofs.«128841_j30296699306039_2_alg».proof.Proof.Gen.KernelIdeal
import proofs.«128841_j30296699306039_2_alg».proof.Proof.Gen.KernelIdeal.Frame
import proofs.«128841_j30296699306039_2_alg».proof.Proof.Gen.ReferenceIdeal
import proofs.«128841_j30296699306039_2_alg».proof.Proof.Gen.Pre_finite_inputs
import proofs.«128841_j30296699306039_2_alg».proof.Proof.Gen.KernelIdeal.Value
import proofs.«128841_j30296699306039_2_alg».proof.Proof.Gen.ReferenceIdeal.Run
import proofs.«128841_j30296699306039_2_alg».proof.Proof.Gen.ReferenceIdeal.Read
import proofs.«128841_j30296699306039_2_alg».proof.Proof.RefIsSpec
import proofs.«128841_j30296699306039_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments, the kernel's result array ends at `G` of them (the 32 blocks put
    together) and the reference's at its last stage, which is `G` of them too. -/
theorem algebraic : Cert.algebraic_KernelIdeal_ReferenceIdeal := by
  intro m ρ m' ρ' _ hagree
  refine ⟨fun c => Cert.ModConv.Blocks.Gm m c, Cert.ModConv.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ModConv.Ref.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
